-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x4096x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S4x4096x128 : Shape := ⟨3, ![4, 4096, 128]⟩
abbrev S128x128 : Shape := ⟨2, ![128, 128]⟩
abbrev S128 : Shape := ⟨1, ![128]⟩
abbrev S1x128 : Shape := ⟨2, ![1, 128]⟩
abbrev S1x4096x128 : Shape := ⟨3, ![1, 4096, 128]⟩
abbrev S1x256x128 : Shape := ⟨3, ![1, 256, 128]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x256x128, .f32⟩
  | .local _ .vmem, ⟨9, _⟩ => ⟨S1x256x128, .f32⟩
  | .local _ .vmem, ⟨10, _⟩ => ⟨S4096x128, .bf16⟩
  | .local _ .vmem, ⟨11, _⟩ => ⟨S4096x128, .bf16⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S128x128_S128x128_1_0 : S128x128.Transposes [1, 0] S128x128
  shapeCasts_S128_S1x128 : S128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  h_S1x256x128 : 0 < S1x256x128.numel
  shapeCasts_S1x256x128_S256x128 : S1x256x128.ShapeCasts S256x128
  broadcasts_S1x128_S256x128 : S1x128.Broadcasts S256x128
  reduces_S256x4096_S256 : S256x4096.Reduces [1] S256
  shapeCasts_S256_S256x1 : S256.ShapeCasts S256x1
  broadcasts_S256x1_S256x4096 : S256x1.Broadcasts S256x4096
  inb_S1x256x128_S1x256x128_0_0_0 : ∀ a, (![0, 0, 0] : Fin 3 → Nat) a + S1x256x128.size a ≤ S1x256x128.size a
  shapeCasts_S256x128_S1x256x128 : S256x128.ShapeCasts S1x256x128
  dot_S4096x128_S128x128_S4096x128_1_0_0_1_n_n_wf : DotDims.WF S4096x128 S128x128 S4096x128 [1] [0] [0] [1] [] []
  dot_S256x128_S128x128_S256x128_1_0_0_1_n_n_wf : DotDims.WF S256x128 S128x128 S256x128 [1] [0] [0] [1] [] []
  dot_S256x128_S4096x128_S256x4096_1_1_0_0_n_n_wf : DotDims.WF S256x128 S4096x128 S256x4096 [1] [1] [0] [0] [] []
  dot_S256x4096_S4096x128_S256x128_1_0_0_1_n_n_wf : DotDims.WF S256x4096 S4096x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x128.size a ≤ S1x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x128.size a ≤ S4x4096x128.size a
  hwx0_7 : ∀ i : grid0.Coords, EltTy.bits .f32 = 32 ∨ (Rect.block (s := S4x4096x128) S1x256x128.size (cc0_transform_7 i) (hinb0_7 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S128x128 : Shape := ⟨2, ![128, 128]⟩
abbrev S128 : Shape := ⟨1, ![128]⟩
abbrev S1x1x128 : Shape := ⟨3, ![1, 1, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4x4096x128, .f32⟩
  | .hbm, ⟨8, _⟩ => ⟨S1x1x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S1x1x128, .f32⟩
  | .hbm, ⟨13, _⟩ => ⟨S4x4096x128, .f32⟩
  | .hbm, ⟨14, _⟩ => ⟨S4x4096x128, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x128, .f32⟩
  | .hbm, ⟨31, _⟩ => ⟨S4x4096x128, .f32⟩
  | .hbm, ⟨32, _⟩ => ⟨S1x1x128, .f32⟩
  | .hbm, ⟨33, _⟩ => ⟨S4x4096x128, .f32⟩
  | .hbm, ⟨34, _⟩ => ⟨S4x4096x128, .f32⟩
  | .hbm, ⟨35, _⟩ => ⟨S_, .f32⟩
  | .hbm, ⟨36, _⟩ => ⟨S4x4096x128, .f32⟩
  | .hbm, ⟨37, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x128 : S_.BroadcastsInDim S4x4096x128 (![] : Fin 0 → Fin S4x4096x128.rank)
  dot_S4x4096x128_S128x128_S4x4096x128_2_1_01_0_n_n_wf : DotDims.WF S4x4096x128 S128x128 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.Spec.lean ====
/-
  The graph-attention layer that both programs compute, written once as a function of the seven argument arrays on
  the extended reals: the features `x : [4, 4096, 128]`, and for the query, key and output projections a weight
  matrix `[128, 128]` (stored output-major: row `e` holds the coefficients of output feature `e`) and a bias `[128]`.

  For a batch `bt` and a node `n`:
  • a projection is `lin x W b bt n e = Σ_d x(bt, n, d) · W(e, d) + b(e)`;
  • the score of node `n` against node `m` is the inner product of `n`'s query with `m`'s key;
  • the attention weights of `n` are the softmax of its 4096 scores: each score less the row's maximum (taken from
    the f32 word of -∞), exponentiated, and divided by the sum of the row's exponentials;
  • the mixed feature `d` is the weights' average of the nodes' features `x(bt, m, d)`;
  • the output is the output projection of the mixed features, clamped below at zero.
  Every sum is a finite sum indexed by a coordinate, every operation the extended reals' own, so no step asks whether
  an entry is finite.
-/
import Idealize.ShloMosaic.PureOps.Ideal
import Idealize.ShloMosaic.Lib.ValueIdx
import proofs.«147092_j17463337026078_2_alg».proof.Proof.LibMaxReduce

noncomputable section

namespace Cert.Attn

open Idealize.ShloMosaic Idealize.ShloMosaic.ValueIdx Cert.LibMaxReduce

/-- The features, a weight matrix and a bias, as arrays of extended reals. -/
abbrev Feat := (⟨3, ![4, 4096, 128]⟩ : Shape).Idx → EReal
abbrev Wt := (⟨2, ![128, 128]⟩ : Shape).Idx → EReal
abbrev Bias := (⟨1, ![128]⟩ : Shape).Idx → EReal

/-- The f32 word of -∞, from which a row's maximum is taken. -/
def negInf : EReal := Ideal.ofBits .f32 0xFF800000#32

/-- The f32 word of zero, below which the output is clamped. -/
def zeroWord : EReal := Ideal.ofBits .f32 0x00000000#32

/-- One output feature of a linear layer at one node: `Σ_d x(bt, n, d) · W(e, d) + b(e)`. -/
def lin (x : Feat) (W : Wt) (b : Bias) (bt : Fin 4) (n : Fin 4096) (e : Fin 128) : EReal :=
  (∑ d : Fin 128, x (ix3 bt n d) * W (ix2 e d)) + b (ix1 e)

section
variable (x : Feat) (Wq : Wt) (bq : Bias) (Wk : Wt) (bk : Bias)

/-- The score of node `n` against node `m`: the query of `n` times the key of `m`, summed over the 128 features. -/
def score (bt : Fin 4) (n m : Fin 4096) : EReal :=
  ∑ e : Fin 128, lin x Wq bq bt n e * lin x Wk bk bt m e

/-- The largest of node `n`'s 4096 scores (from -∞). -/
def rowMax (bt : Fin 4) (n : Fin 4096) : EReal :=
  foldMax negInf (fun m : Fin 4096 => score x Wq bq Wk bk bt n m)

/-- A score less its row's maximum, exponentiated. -/
def expo (bt : Fin 4) (n m : Fin 4096) : EReal :=
  Ideal.exp (score x Wq bq Wk bk bt n m - rowMax x Wq bq Wk bk bt n)

/-- The sum of a row's exponentials. -/
def denom (bt : Fin 4) (n : Fin 4096) : EReal :=
  ∑ m : Fin 4096, expo x Wq bq Wk bk bt n m

/-- The attention weight node `n` gives node `m`. -/
def attn (bt : Fin 4) (n m : Fin 4096) : EReal :=
  Ideal.div (expo x Wq bq Wk bk bt n m) (denom x Wq bq Wk bk bt n)

/-- Feature `d` of node `n` after mixing: the attention-weighted sum of the nodes' features. -/
def mix (bt : Fin 4) (n : Fin 4096) (d : Fin 128) : EReal :=
  ∑ m : Fin 4096, attn x Wq bq Wk bk bt n m * x (ix3 bt m d)

variable (Wg : Wt) (bg : Bias)

/-- The layer's output at node `n`, feature `e`: the output projection of the mixed features, clamped at zero. -/
def outAt (bt : Fin 4) (n : Fin 4096) (e : Fin 128) : EReal :=
  max ((∑ d : Fin 128, mix x Wq bq Wk bk bt n d * Wg (ix2 e d)) + bg (ix1 e)) zeroWord

/-- The layer as one array. -/
def layer : Feat := fun i => outAt x Wq bq Wk bk Wg bg (i 0) (i 1) (i 2)

end

end Cert.Attn

end
-- ==== Proof.Pieces.lean ====
/-
  What one run of the kernel body leaves behind, as values of what it loaded.

  The body has two cases. At the first grid point of a batch it projects the whole batch's features to keys and
  stores them, and the features themselves, into two buffers it keeps for the rest of the batch; at every point it
  then loads 256 rows of the features (the point's tile), and computes that tile's output block from the tile, the
  weights, and the two kept buffers — at a batch's first point the ones it has just stored, later the ones a point
  before left. Here each of these is read back as the body's arithmetic (the named payloads) applied to the loaded
  values: the kept keys, the kept features, and the output block in either case.
-/
import proofs.«147092_j17463337026078_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.Attn.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of a grid point: the 256 rows of the batch's features that the body loads there, starting at row
    256 times the point's second coordinate. -/
def tile (i : grid0.Coords) (x0 : Vec F S1x4096x128 .f32) : Vec F S1x256x128 .f32 :=
  View.ld x0 (Rect.unit (s := S1x4096x128) (k0_off1 i) S1x256x128.size (k0_off1_inb i))

/-- At a batch's first point the body leaves the keys of the whole batch in the first kept buffer. -/
theorem keys_A (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S4096x128 .bf16) (harg10 : arg10.IsWhole) (arg11 : Memref sig .tc .vmem S4096x128 .bf16) (harg11 : arg11.IsWhole) (hc0 : cond0_0 i) (x0 : Vec F S1x4096x128 .f32) (x1 : Vec F S128x128 .f32) (x2 : Vec F S1x128 .f32) (x3 : Vec F S128x128 .f32) (x4 : Vec F S1x128 .f32) (x5 : Vec F S128x128 .f32) (x6 : Vec F S1x128 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, View.ld_unit_zero (S := S1x4096x128) hz3, View.ld_unit_zero (S := S128x128) hz2, View.ld_unit_zero (S := S1x128) hz2, View.ld_unit_zero (S := S4096x128) hz2]

/-- … and the batch's features in the second. -/
theorem vals_A (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S4096x128 .bf16) (harg10 : arg10.IsWhole) (arg11 : Memref sig .tc .vmem S4096x128 .bf16) (harg11 : arg11.IsWhole) (hc0 : cond0_0 i) (x0 : Vec F S1x4096x128 .f32) (x1 : Vec F S128x128 .f32) (x2 : Vec F S1x128 .f32) (x3 : Vec F S128x128 .f32) (x4 : Vec F S1x128 .f32) (x5 : Vec F S128x128 .f32) (x6 : Vec F S1x128 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, View.ld_unit_zero (S := S1x4096x128) hz3, View.ld_unit_zero (S := S128x128) hz2, View.ld_unit_zero (S := S1x128) hz2, View.ld_unit_zero (S := S4096x128) hz2]

/-- The output block at a batch's first point: computed from the tile and from the keys and features just stored. -/
theorem out_A (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S4096x128 .bf16) (harg10 : arg10.IsWhole) (arg11 : Memref sig .tc .vmem S4096x128 .bf16) (harg11 : arg11.IsWhole) (hc0 : cond0_0 i) (x0 : Vec F S1x4096x128 .f32) (x1 : Vec F S128x128 .f32) (x2 : Vec F S1x128 .f32) (x3 : Vec F S128x128 .f32) (x4 : Vec F S1x128 .f32) (x5 : Vec F S128x128 .f32) (x6 : Vec F S1x128 .f32) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay1 (k0_pay5 x5) (k0_pay6 (tile i x0) x1 x2 (k0_pay3 x0 x3 x4) (k0_pay4 x0)) (constant S256x128 .f32 0x00000000#32) x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread, View.ld_unit_zero (S := S1x4096x128) hz3, View.ld_unit_zero (S := S128x128) hz2, View.ld_unit_zero (S := S1x128) hz2, View.ld_unit_zero (S := S4096x128) hz2]
  rw [View.readCov_unit_zero (S := S4096x128) _ hz2, View.readCov_unit_zero (S := S4096x128) _ hz2]
  rfl

/-- The output block at any later point of the batch: computed from the tile and from the kept keys `xs0` and
    features `xs1` that the point before left. -/
theorem out_B (c : Dev nD) (i : grid0.Coords) (arg2 : Memref sig .tc .vmem S1x4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S4096x128 .bf16) (harg10 : arg10.IsWhole) (arg11 : Memref sig .tc .vmem S4096x128 .bf16) (harg11 : arg11.IsWhole) (hc0 : ¬cond0_0 i) (x0 : Vec F S1x4096x128 .f32) (x1 : Vec F S128x128 .f32) (x2 : Vec F S1x128 .f32) (x3 : Vec F S128x128 .f32) (x4 : Vec F S1x128 .f32) (x5 : Vec F S128x128 .f32) (x6 : Vec F S1x128 .f32) (xs0 xs1 : Vec F S4096x128 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1
      = k0_pay1 (k0_pay5 x5) (k0_pay6 (tile i x0) x1 x2 xs0 xs1) (constant S256x128 .f32 0x00000000#32) x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread, View.ld_unit_zero (S := S1x4096x128) hz3, View.ld_unit_zero (S := S128x128) hz2, View.ld_unit_zero (S := S1x128) hz2, View.ld_unit_zero (S := S4096x128) hz2]
  rfl

end Cert.Attn.Pieces

end
-- ==== Proof.Blocks.lean ====
/-
  Where each window's block sits in its array, at every grid point.

  The grid has 64 points, `t = 16 · batch + tile`. The features' window holds one whole batch, `[1, 4096, 128]` at block
  index `(t / 16, 0, 0)`; each weight's and bias's window is its whole (host-prepared) array at every point; the
  output's window is the tile's 256 rows of the batch, block index `(t / 16, t % 16, 0)`; and the rows the body
  loads as its tile start at row `256 · (t % 16)` of the batch. These index maps are decided once over the grid, and
  each block is then read at an index of its array.
-/
import proofs.«147092_j17463337026078_2_alg».proof.Proof.Gen.KernelIdeal.Frame
import proofs.«147092_j17463337026078_2_alg».proof.Proof.Pieces
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.Attn.Blocks

open Cert.KernelIdeal Cert.KernelIdeal.Gen Cert.Attn.Pieces

variable {F : FTy → Type} [FloatOps F]
variable (m : (ℓ : Loc nD τ sig) → Buf (Elt F) ℓ)

/-- The printed index maps and the tile's row offset, at every grid point. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 16 ∧ win0_7.index t (1 : Fin 3) = t.val % 16 ∧ win0_7.index t (2 : Fin 3) = 0
    ∧ k0_off1 (grid0.coords t) (0 : Fin 3) = 0 ∧ k0_off1 (grid0.coords t) (1 : Fin 3) = 256 * (t.val % 16)
    ∧ k0_off1 (grid0.coords t) (2 : Fin 3) = 0 :=
  (by decide +kernel : ∀ t : Fin grid0.N, _)

theorem lt64 (t : Fin cfg0.N) : t.val < 64 := lt_of_lt_of_eq t.isLt (show cfg0.N = 64 from N_0)

/-- The batch a grid point works on. -/
def batchOf (t : Fin cfg0.N) : Fin 4 := ⟨t.val / 16, by have := lt64 t; omega⟩

/-- The node that row `p` of a grid point's tile is. -/
def nodeOf (t : Fin cfg0.N) (p : Fin 256) : Fin 4096 := ⟨256 * (t.val % 16) + p.val, by have := p.isLt; omega⟩

/-- The features' window at a point is that point's batch: entry `(0, n, d)` is the features' `(batch, n, d)`. -/
theorem feat_blk_apply (c : Dev nD) (t : Fin cfg0.N) (u : Fin 1) (n : Fin 4096) (d : Fin 128) :
    (iblk m c 0 t : Vec F S1x4096x128 .f32) (ix3 u n d) = V m c main_arg0 (ix3 (batchOf t) n d) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * u.val = t.val / 16; have := u.isLt; omega
  | ⟨1, _⟩ => show win0_0.index t (1 : Fin 3) * 4096 + 1 * n.val = n.val; omega
  | ⟨2, _⟩ => show win0_0.index t (2 : Fin 3) * 128 + 1 * d.val = d.val; omega

/-- One batch of the features as the launch finds them, laid out as the `[1, 4096, 128]` block the window holds. -/
def slab (c : Dev nD) (b : Fin 4) : Vec F S1x4096x128 .f32 := fun j => V m c main_arg0 (ix3 b (j 1) (j 2))

/-- The features' window at a point is the slab of that point's batch. -/
theorem feat_blk (c : Dev nD) (t : Fin cfg0.N) : (iblk m c 0 t : Vec F S1x4096x128 .f32) = slab m c (batchOf t) := by
  funext j
  obtain ⟨u, n, d, rfl⟩ : ∃ (u : Fin 1) (n : Fin 4096) (d : Fin 128), j = ix3 u n d := ⟨j 0, j 1, j 2, eq_ix3 j⟩
  exact feat_blk_apply m c t u n d

/-- Two points of one batch work on the same batch. -/
theorem batchOf_pred (t : Fin cfg0.N) (h : ¬t.val % 16 = 0) :
    batchOf (⟨t.val - 1, Nat.lt_of_le_of_lt (Nat.sub_le _ _) t.isLt⟩ : Fin cfg0.N) = batchOf t := by
  apply Fin.ext
  show (t.val - 1) / 16 = t.val / 16
  omega

/-- The query weight's window is the whole transposed weight at every point. -/
theorem wq_blk (c : Dev nD) (t : Fin cfg0.N) : (iblk m c 1 t : Vec F S128x128 .f32) = V m c main_v0 := by
  have e0 : win0_1.index t (0 : Fin 2) = 0 := (idx_facts t).2.2.2.1
  have e1 : win0_1.index t (1 : Fin 2) = 0 := (idx_facts t).2.2.2.2.1
  funext j
  unfold iblk
  rw [View.read_apply]
  show V m c main_v0 _ = V m c main_v0 j
  congr 1
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The query bias's window is the whole bias row at every point. -/
theorem bq_blk (c : Dev nD) (t : Fin cfg0.N) : (iblk m c 2 t : Vec F S1x128 .f32) = V m c main_v3 := by
  have e0 : win0_2.index t (0 : Fin 2) = 0 := (idx_facts t).2.2.2.2.2.1
  have e1 : win0_2.index t (1 : Fin 2) = 0 := (idx_facts t).2.2.2.2.2.2.1
  funext j
  unfold iblk
  rw [View.read_apply]
  show V m c main_v3 _ = V m c main_v3 j
  congr 1
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- The key weight's window is the whole transposed weight at every point. -/
theorem wk_blk (c : Dev nD) (t : Fin cfg0.N) : (iblk m c 3 t : Vec F S128x128 .f32) = V m c main_v1 := by
  have e0 : win0_3.index t (0 : Fin 2) = 0 := (idx_facts t).2.2.2.2.2.2.2.1
  have e1 : win0_3.index t (1 : Fin 2) = 0 := (idx_facts t).2.2.2.2.2.2.2.2.1
  funext j
  unfold iblk
  rw [View.read_apply]
  show V m c main_v1 _ = V m c main_v1 j
  congr 1
  funext a; apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The key bias's window is the whole bias row at every point. -/
theorem bk_blk (c : Dev nD) (t : Fin cfg0.N) : (iblk m c 4 t : Vec F S1x128 .f32) = V m c main_v4 := by
  have e0 : win0_4.index t (0 : Fin 2) = 0 := (idx_facts t).2.2.2.2.2.2.2.2.2.1
  have e1 : win0_4.index t (1 : Fin 2) = 0 := (idx_facts t).2.2.2.2.2.2.2.2.2.2.1
  funext j
  unfold iblk
  rw [View.read_apply]
  show V m c main_v4 _ = V m c main_v4 j
  congr 1
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The output weight's window is the whole transposed weight at every point. -/
theorem wg_blk (c : Dev nD) (t : Fin cfg0.N) : (iblk m c 5 t : Vec F S128x128 .f32) = V m c main_v2 := by
  have e0 : win0_5.index t (0 : Fin 2) = 0 := (idx_facts t).2.2.2.2.2.2.2.2.2.2.2.1
  have e1 : win0_5.index t (1 : Fin 2) = 0 := (idx_facts t).2.2.2.2.2.2.2.2.2.2.2.2.1
  funext j
  unfold iblk
  rw [View.read_apply]
  show V m c main_v2 _ = V m c main_v2 j
  congr 1
  funext a; apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- The output bias's window is the whole bias row at every point. -/
theorem bg_blk (c : Dev nD) (t : Fin cfg0.N) : (iblk m c 6 t : Vec F S1x128 .f32) = V m c main_v5 := by
  have e0 : win0_6.index t (0 : Fin 2) = 0 := (idx_facts t).2.2.2.2.2.2.2.2.2.2.2.2.2.1
  have e1 : win0_6.index t (1 : Fin 2) = 0 := (idx_facts t).2.2.2.2.2.2.2.2.2.2.2.2.2.2.1
  funext j
  unfold iblk
  rw [View.read_apply]
  show V m c main_v5 _ = V m c main_v5 j
  congr 1
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Row `p` of the tile loaded from a batch's features is the batch's node `256 · tile + p`. -/
theorem tile_apply (t : Fin cfg0.N) (x0 : Vec F S1x4096x128 .f32) (u : Fin 1) (p : Fin 256) (d : Fin 128) :
    tile (grid0.coords t) x0 (ix3 u p d) = x0 (ix3 (0 : Fin 1) (nodeOf t p) d) := by
  have o0 : k0_off1 (grid0.coords t) (0 : Fin 3) = 0 := (idx_facts t).2.2.2.2.2.2.2.2.2.2.2.2.2.2.2.2.2.2.1
  have o1 : k0_off1 (grid0.coords t) (1 : Fin 3) = 256 * (t.val % 16) := (idx_facts t).2.2.2.2.2.2.2.2.2.2.2.2.2.2.2.2.2.2.2.1
  have o2 : k0_off1 (grid0.coords t) (2 : Fin 3) = 0 := (idx_facts t).2.2.2.2.2.2.2.2.2.2.2.2.2.2.2.2.2.2.2.2
  unfold tile
  show x0 _ = x0 _
  congr 1
  funext a; apply Fin.ext
  match a with
  | ⟨0, _⟩ => show k0_off1 (grid0.coords t) (0 : Fin 3) + 1 * u.val = 0; have := u.isLt; omega
  | ⟨1, _⟩ => show k0_off1 (grid0.coords t) (1 : Fin 3) + 1 * p.val = 256 * (t.val % 16) + p.val; omega
  | ⟨2, _⟩ => show k0_off1 (grid0.coords t) (2 : Fin 3) + 1 * d.val = d.val; omega

end Cert.Attn.Blocks

end
-- ==== Proof.Carry.lean ====
/-
  What the kernel's buffers hold after each grid point, as the body's arithmetic applied to the arrays the launch finds.

  Within a batch the body keeps two buffers from point to point: the batch's keys and the batch's features. They are
  written at the batch's first point and only read afterwards, so after EVERY point of the batch they hold the keys and
  the features of that batch — by induction on the point: a first point writes them from its own blocks, and a later
  point leaves what the point before left, which belongs to the same batch. The output buffer after a point then holds
  the body's output arithmetic applied to the point's tile, the weights and biases, and those keys and features, in
  either case.
-/
import proofs.«147092_j17463337026078_2_alg».proof.Proof.Gen.KernelIdeal.Frame
import proofs.«147092_j17463337026078_2_alg».proof.Proof.Pieces
import proofs.«147092_j17463337026078_2_alg».proof.Proof.Blocks

set_option maxRecDepth 16384

noncomputable section

open Idealize.ShloMosaic Idealize.ShloMosaic.TcCoe Idealize.SL.Sem Idealize.ShloMosaic.ValueIdx

namespace Cert.Attn.Carry

open Cert.KernelIdeal Cert.KernelIdeal.Gen Cert.Attn.Pieces Cert.Attn.Blocks

variable {F : FTy → Type} [FloatOps F]
variable (m : (ℓ : Loc nD τ sig) → Buf (Elt F) ℓ)

/-- The keys of a batch, as the body computes them from the batch's features and the key weight and bias. -/
def keysOf (c : Dev nD) (b : Fin 4) : Vec F S4096x128 .bf16 := k0_pay3 (slab m c b) (V m c main_v1) (V m c main_v4)

/-- The features of a batch, as the body keeps them. -/
def valsOf (c : Dev nD) (b : Fin 4) : Vec F S4096x128 .bf16 := k0_pay4 (slab m c b)

/-- The output block of a grid point, as the body computes it from the point's tile, the weights and biases, and
    the point's batch's keys and features. -/
def blockOut (c : Dev nD) (t : Fin cfg0.N) : Vec F S1x256x128 .f32 :=
  k0_pay1 (k0_pay5 (V m c main_v2))
    (k0_pay6 (tile (grid0.coords t) (slab m c (batchOf t))) (V m c main_v0) (V m c main_v3) (keysOf m c (batchOf t)) (valsOf m c (batchOf t)))
    (constant S256x128 .f32 0x00000000#32) (V m c main_v5)

/-- After a batch's first point: the output block, and the batch's keys and features freshly written. -/
theorem first_point (c : Dev nD) (t : Fin cfg0.N) (h0 : t.val % 16 = 0) :
    outsAt0 m c t.val t.isLt = (blockOut m c t, keysOf m c (batchOf t), valsOf m c (batchOf t)) := by
  refine (outsAt0_A m c t h0).trans ?_
  rw [out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
    keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
    vals_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)]
  rw [feat_blk m c t, wq_blk m c t, bq_blk m c t, wk_blk m c t, bk_blk m c t, wg_blk m c t, bg_blk m c t]
  rfl

/-- After a later point of a batch, given that the point before left the batch's keys and features: the output block,
    and the same keys and features. -/
theorem later_point (c : Dev nD) (t : Fin cfg0.N) (h0 : ¬t.val % 16 = 0)
    (ih1 : (outsAt0 m c (t.val - 1) (Nat.lt_of_le_of_lt (Nat.sub_le _ _) t.isLt)).2.1 = keysOf m c (batchOf t)) (ih2 : (outsAt0 m c (t.val - 1) (Nat.lt_of_le_of_lt (Nat.sub_le _ _) t.isLt)).2.2 = valsOf m c (batchOf t)) :
    outsAt0 m c t.val t.isLt = (blockOut m c t, keysOf m c (batchOf t), valsOf m c (batchOf t)) := by
  refine (outsAt0_B m c t h0).trans ?_
  rw [out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2]
  unfold sout0_B_0 sout0_B_1
  rw [ih1, ih2]
  rw [feat_blk m c t, wq_blk m c t, bq_blk m c t, wg_blk m c t, bg_blk m c t]
  rfl

/-- After every grid point: the point's output block, and the keys and the features of the point's batch. -/
theorem after_point (c : Dev nD) : ∀ (n : ℕ) (h : n < cfg0.N),
    outsAt0 m c n h = (blockOut m c ⟨n, h⟩, keysOf m c (batchOf ⟨n, h⟩), valsOf m c (batchOf ⟨n, h⟩))
  | 0, h => first_point m c ⟨0, h⟩ rfl
  | n + 1, h => by
    by_cases h0 : (n + 1) % 16 = 0
    · exact first_point m c ⟨n + 1, h⟩ h0
    · have ih := after_point c n (Nat.lt_of_succ_lt h)
      have hb : batchOf (⟨n, Nat.lt_of_succ_lt h⟩ : Fin cfg0.N) = batchOf (⟨n + 1, h⟩ : Fin cfg0.N) :=
        batchOf_pred ⟨n + 1, h⟩ h0
      refine later_point m c ⟨n + 1, h⟩ h0 ?_ ?_
      · show (outsAt0 m c n _).2.1 = _
        rw [ih, hb]
      · show (outsAt0 m c n _).2.2 = _
        rw [ih, hb]

end Cert.Attn.Carry

end
-- ==== Proof.HostPrefix.lean ====
/-
  What the kernel's launch finds in the buffers the host prepares before it: the three weight matrices transposed,
  the three biases laid out as rows `[1, 128]`. Entry `(d, e)` of a transposed weight is the weight's entry
  `(e, d)`; entry `(0, e)` of a bias row is the bias's entry `e`. The features and the arguments themselves are found
  as launched.
-/
import proofs.«147092_j17463337026078_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.Attn.Host

open Cert.KernelIdeal Cert.KernelIdeal.Gen

variable {F : FTy → Type} [FloatOps F]
variable (m : (ℓ : Loc nD τ sig) → Buf (Elt F) ℓ)

/-- The query weight, transposed. -/
theorem wqT (c : Dev nD) : (V m c main_v0 : S128x128.Idx → Elt F .f32)
    = transpose S128x128 [1, 0] (m ((c : Thread nD τ).loc main_arg1)) transposes_S128x128_S128x128_1_0 := by
  dsimp only [Gen.V, Gen.hostOps0]; after_results

/-- The key weight, transposed. -/
theorem wkT (c : Dev nD) : (V m c main_v1 : S128x128.Idx → Elt F .f32)
    = transpose S128x128 [1, 0] (m ((c : Thread nD τ).loc main_arg3)) transposes_S128x128_S128x128_1_0 := by
  dsimp only [Gen.V, Gen.hostOps0]; after_results

/-- The output weight, transposed. -/
theorem wgT (c : Dev nD) : (V m c main_v2 : S128x128.Idx → Elt F .f32)
    = transpose S128x128 [1, 0] (m ((c : Thread nD τ).loc main_arg5)) transposes_S128x128_S128x128_1_0 := by
  dsimp only [Gen.V, Gen.hostOps0]; after_results

/-- The query bias as a row. -/
theorem bqRow (c : Dev nD) : (V m c main_v3 : S1x128.Idx → Elt F .f32)
    = shapeCast S1x128 (m ((c : Thread nD τ).loc main_arg2)) shapeCasts_S128_S1x128 := by
  dsimp only [Gen.V, Gen.hostOps0]; after_results; rfl

/-- The key bias as a row. -/
theorem bkRow (c : Dev nD) : (V m c main_v4 : S1x128.Idx → Elt F .f32)
    = shapeCast S1x128 (m ((c : Thread nD τ).loc main_arg4)) shapeCasts_S128_S1x128 := by
  dsimp only [Gen.V, Gen.hostOps0]; after_results; rfl

/-- The output bias as a row. -/
theorem bgRow (c : Dev nD) : (V m c main_v5 : S1x128.Idx → Elt F .f32)
    = shapeCast S1x128 (m ((c : Thread nD τ).loc main_arg6)) shapeCasts_S128_S1x128 := by
  dsimp only [Gen.V, Gen.hostOps0]; after_results; rfl

/-- Entry `(d, e)` of the transposed query weight is the weight's entry `(e, d)`. -/
theorem wqT_apply (c : Dev nD) (d e : Fin 128) :
    (V m c main_v0 : S128x128.Idx → Elt F .f32) (ix2 d e) = m ((c : Thread nD τ).loc main_arg1) (ix2 e d) := by
  rw [wqT]; exact transpose_ix2_apply _ _ d e

theorem wkT_apply (c : Dev nD) (d e : Fin 128) :
    (V m c main_v1 : S128x128.Idx → Elt F .f32) (ix2 d e) = m ((c : Thread nD τ).loc main_arg3) (ix2 e d) := by
  rw [wkT]; exact transpose_ix2_apply _ _ d e

theorem wgT_apply (c : Dev nD) (d e : Fin 128) :
    (V m c main_v2 : S128x128.Idx → Elt F .f32) (ix2 d e) = m ((c : Thread nD τ).loc main_arg5) (ix2 e d) := by
  rw [wgT]; exact transpose_ix2_apply _ _ d e

/-- Entry `(0, e)` of the query bias row is the bias's entry `e`. -/
theorem bqRow_apply (c : Dev nD) (u : Fin 1) (e : Fin 128) :
    (V m c main_v3 : S1x128.Idx → Elt F .f32) (ix2 u e) = m ((c : Thread nD τ).loc main_arg2) (ix1 e) := by
  rw [bqRow]; exact shapeCast_a_1a_apply _ _ u e

theorem bkRow_apply (c : Dev nD) (u : Fin 1) (e : Fin 128) :
    (V m c main_v4 : S1x128.Idx → Elt F .f32) (ix2 u e) = m ((c : Thread nD τ).loc main_arg4) (ix1 e) := by
  rw [bkRow]; exact shapeCast_a_1a_apply _ _ u e

theorem bgRow_apply (c : Dev nD) (u : Fin 1) (e : Fin 128) :
    (V m c main_v5 : S1x128.Idx → Elt F .f32) (ix2 u e) = m ((c : Thread nD τ).loc main_arg6) (ix1 e) := by
  rw [bgRow]; exact shapeCast_a_1a_apply _ _ u e

end Cert.Attn.Host

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.Payload.lean ====
/-
  The kernel body's arithmetic, read at an index, at the ideal values.

  The kernel's payloads are pure terms over the blocks it loads: the key projection and the features it stores to its
  two scratch arrays, the mixed features of a 256-row tile, and the output tile. Each is read here at an index written
  by coordinates and shown to be the corresponding quantity of the layer's specification (`Cert.Attn`):
  • the key projection at (m, e) is `lin x Wk bk bt m e`, the stored features at (m, d) are `x(bt, m, d)`;
  • the 256-row tile's queries against all 4096 keys give the scores; the row softmax — each score less its row's
    maximum taken from the word of -∞, exponentiated, over the row's sum of exponentials — gives the attention
    weights, and the weights times the stored features give `mix` at (p, d);
  • the output projection of the mixed features plus its bias, clamped below at the word of zero and given a leading
    unit axis, is `outAt` at (0, p, e).
  The hypotheses say how each block reads the whole argument arrays: a weight block is the weight transposed, a bias
  block is the bias as a row, a feature block is one batch (and, for a tile, the rows `node p`).
  Every narrowing to a 16-bit format is the identity on the extended reals, a cast of a shape to itself changes
  nothing, and each product into the zero accumulator is a finite sum over its one contracted coordinate.
-/
import proofs.«147092_j17463337026078_2_alg».proof.Proof.Gen.KernelIdeal.Skeleton
import proofs.«147092_j17463337026078_2_alg».proof.Proof.Spec
import proofs.«147092_j17463337026078_2_alg».proof.Proof.LibMaxReduce
import proofs.«147092_j17463337026078_2_alg».proof.Proof.LibKeepdims
import proofs.«147092_j17463337026078_2_alg».proof.Proof.LibRowBroadcast
import proofs.«147092_j17463337026078_2_alg».proof.Proof.LibPlainMatmul
import proofs.«147092_j17463337026078_2_alg».proof.Proof.LibMatmulRhsT
import Idealize.ShloMosaic.Lib.ValueLayout
import Idealize.ShloMosaic.Lib.Pipeline.Value
import Idealize.ShloMosaic.PureOps.Ideal.Laws

noncomputable section

namespace Cert.Attn.Pay

open Cert.KernelIdeal Cert.KernelIdeal.Gen Cert.Attn Idealize.ShloMosaic Idealize.ShloMosaic.ValueIdx
open Cert.LibMaxReduce Cert.LibKeepdims Cert.LibRowBroadcast Cert.LibMatmulRhsT

variable (X : Feat) (Wq : Wt) (bq : Bias) (Wk : Wt) (bk : Bias) (Wg : Wt) (bg : Bias) (bt : Fin 4)

/-- The exponential of an array, read at an index. -/
theorem exp_apply {s : Shape} {φ : FTy} (a : FVec Ideal s φ) (i : s.Idx) : exp a i = Ideal.exp (a i) := rfl

/-! ## The row softmax of a [256, 4096] tile -/

/-- A tile's row maxima (from the word of -∞), kept as a column and spread back over the columns, read at (p, m):
    the running maximum of row p. -/
theorem rowMaxB_apply (s : FVec Ideal S256x4096 .f32) (p : Fin 256) (m : Fin 4096) :
    (broadcastTo S256x4096 (shapeCast S256x1 (multiReduction (F := Ideal) .maximumf [1] S256 s 0xFF800000#32 reduces_S256x4096_S256 (.inl rfl) rfl) shapeCasts_S256_S256x1) broadcasts_S256x1_S256x4096) (ix2 p m)
      = foldMax negInf (fun k : Fin 4096 => s (ix2 p k)) := by
  rw [broadcastTo_a1_ab_apply _ _ p m (0 : Fin 1), shapeCast_a_a1_apply]
  exact multiReduction_maximumf_lastAxis_apply s _ _ _ _ p

/-- A tile's row sums, kept as a column and spread back over the columns, read at (p, m): the sum of row p. -/
theorem rowSumB_apply (t : FVec Ideal S256x4096 .f32) (p : Fin 256) (m : Fin 4096) :
    (broadcastTo S256x4096 (shapeCast S256x1 (multiReduction (F := Ideal) .add [1] S256 t 0x00000000#32 reduces_S256x4096_S256 (.inl rfl) rfl) shapeCasts_S256_S256x1) broadcasts_S256x1_S256x4096) (ix2 p m)
      = ∑ k : Fin 4096, t (ix2 p k) := by
  rw [broadcastTo_a1_ab_apply _ _ p m (0 : Fin 1), shapeCast_a_a1_apply]
  exact multiReduction_add_lastAxis_apply t _ _ _ _ p

/-- The softmax weights of a score tile, read at (p, m), when row p of the tile holds node n's scores: the
    exponential of the score less the row's maximum, over the sum of the row's exponentials. -/
theorem weights_apply (s : FVec Ideal S256x4096 .f32) (n : Fin 4096) (p : Fin 256)
    (hs : ∀ m : Fin 4096, s (ix2 p m) = score X Wq bq Wk bk bt n m) (m : Fin 4096) :
    divf (exp (subf s (broadcastTo S256x4096 (shapeCast S256x1 (multiReduction (F := Ideal) .maximumf [1] S256 s 0xFF800000#32 reduces_S256x4096_S256 (.inl rfl) rfl) shapeCasts_S256_S256x1) broadcasts_S256x1_S256x4096)))
      (broadcastTo S256x4096 (shapeCast S256x1 (multiReduction (F := Ideal) .add [1] S256 (exp (subf s (broadcastTo S256x4096 (shapeCast S256x1 (multiReduction (F := Ideal) .maximumf [1] S256 s 0xFF800000#32 reduces_S256x4096_S256 (.inl rfl) rfl) shapeCasts_S256_S256x1) broadcasts_S256x1_S256x4096))) 0x00000000#32 reduces_S256x4096_S256 (.inl rfl) rfl) shapeCasts_S256_S256x1) broadcasts_S256x1_S256x4096) (ix2 p m)
      = attn X Wq bq Wk bk bt n m := by
  have hex : ∀ m' : Fin 4096, (exp (subf s (broadcastTo S256x4096 (shapeCast S256x1 (multiReduction (F := Ideal) .maximumf [1] S256 s 0xFF800000#32 reduces_S256x4096_S256 (.inl rfl) rfl) shapeCasts_S256_S256x1) broadcasts_S256x1_S256x4096))) (ix2 p m') = expo X Wq bq Wk bk bt n m' := by
    intro m'
    rw [exp_apply, subf_apply, rowMaxB_apply, hs,
      show (fun k : Fin 4096 => s (ix2 p k)) = fun k => score X Wq bq Wk bk bt n k from funext hs]
    rfl
  rw [divf_apply, rowSumB_apply, hex]
  unfold attn denom
  exact congrArg (Ideal.div (expo X Wq bq Wk bk bt n m)) (Finset.sum_congr rfl fun m' _ => hex m')

/-! ## The four payloads -/

/-- The score tile, read at (p, m): the query of node `node p` against the key of node m. -/
theorem score_apply (node : Fin 256 → Fin 4096) (v6 : Vec Ideal S1x256x128 .f32) (x1 : Vec Ideal S128x128 .f32)
    (x2 : Vec Ideal S1x128 .f32) (ks : Vec Ideal S4096x128 .bf16)
    (hv : ∀ (p : Fin 256) (d : Fin 128), v6 (ix3 (0 : Fin 1) p d) = X (ix3 bt (node p) d))
    (hW : ∀ d e : Fin 128, x1 (ix2 d e) = Wq (ix2 e d)) (hb : ∀ e : Fin 128, x2 (ix2 (0 : Fin 1) e) = bq (ix1 e))
    (hks : ∀ (m : Fin 4096) (e : Fin 128), ks (ix2 m e) = lin X Wk bk bt m e)
    (p : Fin 256) (m : Fin 4096) :
    (matmul (F := Ideal) (φ₁ := .bf16) (φ₂ := .bf16) dot_S256x128_S4096x128_S256x4096_1_1_0_0_n_n none
      (truncf .bf16 (addf (matmul (F := Ideal) dot_S256x128_S128x128_S256x128_1_0_0_1_n_n none
          (truncf .bf16 (shapeCast S256x128 v6 shapeCasts_S1x256x128_S256x128) bitsLt_bf16_f32)
          (truncf .bf16 x1 bitsLt_bf16_f32) (constant S256x128 .f32 0x00000000#32))
        (broadcastTo S256x128 x2 broadcasts_S1x128_S256x128)) bitsLt_bf16_f32)
      ks (constant S256x4096 .f32 0x00000000#32)) (ix2 p m)
      = score X Wq bq Wk bk bt (node p) m := by
  refine (matmul_transposedRhs_zero_apply 256 128 4096 (φ₁ := .bf16) (φ₂ := .bf16) none _ _ p m).trans ?_
  unfold score
  refine Finset.sum_congr rfl fun e _ => ?_
  rw [hks]
  refine congrArg (· * lin X Wk bk bt m e) ?_
  rw [truncf_apply, addf_apply]
  unfold lin
  refine congrArg₂ (· + ·) ?_ ?_
  · refine (matmul_plain_zero_apply 256 128 128 (φ₁ := .bf16) (φ₂ := .bf16) none _ _ p e).trans ?_
    refine Finset.sum_congr rfl fun d _ => ?_
    rw [truncf_apply, truncf_apply, shapeCast_1ab_ab_apply, hv, hW]
  · rw [broadcastTo_1b_ab_apply _ _ p e (0 : Fin 1), hb]

/-- The key projection stored to the first scratch, read at (m, e): the linear layer of the keys. -/
theorem keys_apply (x0 : Vec Ideal S1x4096x128 .f32) (x3 : Vec Ideal S128x128 .f32) (x4 : Vec Ideal S1x128 .f32)
    (hx : ∀ (m : Fin 4096) (d : Fin 128), x0 (ix3 (0 : Fin 1) m d) = X (ix3 bt m d))
    (hW : ∀ d e : Fin 128, x3 (ix2 d e) = Wk (ix2 e d)) (hb : ∀ e : Fin 128, x4 (ix2 (0 : Fin 1) e) = bk (ix1 e))
    (m : Fin 4096) (e : Fin 128) :
    k0_pay3 (F := Ideal) x0 x3 x4 (ix2 m e) = lin X Wk bk bt m e := by
  unfold k0_pay3 k0_pay2 lin
  simp only [shapeCast_self]
  rw [truncf_apply, addf_apply]
  refine congrArg₂ (· + ·) ?_ ?_
  · refine (matmul_plain_zero_apply 4096 128 128 (φ₁ := .bf16) (φ₂ := .bf16) none _ _ m e).trans ?_
    refine Finset.sum_congr rfl fun d _ => ?_
    rw [truncf_apply, truncf_apply, shapeCast_1ab_ab_apply, hx, hW]
  · rw [broadcastTo_1b_ab_apply _ _ m e (0 : Fin 1), hb]

/-- The features stored to the second scratch, read at (m, d): the batch's features. -/
theorem vals_apply (x0 : Vec Ideal S1x4096x128 .f32)
    (hx : ∀ (m : Fin 4096) (d : Fin 128), x0 (ix3 (0 : Fin 1) m d) = X (ix3 bt m d)) (m : Fin 4096) (d : Fin 128) :
    k0_pay4 (F := Ideal) x0 (ix2 m d) = X (ix3 bt m d) := by
  unfold k0_pay4 k0_pay2
  simp only [shapeCast_self]
  rw [truncf_apply, shapeCast_1ab_ab_apply, hx]

/-- The mixed features of a 256-row tile, read at (p, d): the attention-weighted sum of the nodes' features. -/
theorem mix_apply (node : Fin 256 → Fin 4096) (v6 : Vec Ideal S1x256x128 .f32) (x1 : Vec Ideal S128x128 .f32) (x2 : Vec Ideal S1x128 .f32)
    (ks vs : Vec Ideal S4096x128 .bf16)
    (hv : ∀ (p : Fin 256) (d : Fin 128), v6 (ix3 (0 : Fin 1) p d) = X (ix3 bt (node p) d))
    (hW : ∀ d e : Fin 128, x1 (ix2 d e) = Wq (ix2 e d)) (hb : ∀ e : Fin 128, x2 (ix2 (0 : Fin 1) e) = bq (ix1 e))
    (hks : ∀ (m : Fin 4096) (e : Fin 128), ks (ix2 m e) = lin X Wk bk bt m e)
    (hvs : ∀ (m : Fin 4096) (d : Fin 128), vs (ix2 m d) = X (ix3 bt m d))
    (p : Fin 256) (d : Fin 128) :
    k0_pay6 (F := Ideal) v6 x1 x2 ks vs (ix2 p d) = mix X Wq bq Wk bk bt (node p) d := by
  unfold k0_pay6 mix
  simp only [shapeCast_self]
  rw [truncf_apply]
  refine (matmul_plain_zero_apply 256 4096 128 (φ₁ := .bf16) (φ₂ := .bf16) none _ _ p d).trans ?_
  refine Finset.sum_congr rfl fun m _ => ?_
  rw [truncf_apply, hvs]
  refine congrArg (· * X (ix3 bt m d)) ?_
  exact weights_apply X Wq bq Wk bk bt _ (node p) p
    (fun m' => score_apply X Wq bq Wk bk bt node v6 x1 x2 ks hv hW hb hks p m') m

/-- The output tile, read at (0, p, e): the output projection of the mixed features plus its bias, clamped below at
    zero. -/
theorem out_apply (node : Fin 256 → Fin 4096) (x5 : Vec Ideal S128x128 .f32) (x6 : Vec Ideal S1x128 .f32) (sg : FVec Ideal S256x128 .bf16)
    (hW : ∀ d e : Fin 128, x5 (ix2 d e) = Wg (ix2 e d)) (hb : ∀ e : Fin 128, x6 (ix2 (0 : Fin 1) e) = bg (ix1 e))
    (hsg : ∀ (p : Fin 256) (d : Fin 128), sg (ix2 p d) = mix X Wq bq Wk bk bt (node p) d)
    (p : Fin 256) (e : Fin 128) :
    k0_pay1 (F := Ideal) (k0_pay5 x5) sg (constant S256x128 .f32 0x00000000#32) x6 (ix3 (0 : Fin 1) p e) = outAt X Wq bq Wk bk Wg bg bt (node p) e := by
  unfold k0_pay1 k0_pay5 outAt
  simp only [shapeCast_self]
  rw [shapeCast_ab_1ab_apply, maximumf_apply, addf_apply, broadcast_apply]
  refine congrArg₂ max (congrArg₂ (· + ·) ?_ ?_) rfl
  · refine (matmul_plain_zero_apply 256 128 128 (φ₁ := .bf16) (φ₂ := .bf16) none _ _ p e).trans ?_
    refine Finset.sum_congr rfl fun d _ => ?_
    rw [hsg, truncf_apply, hW]
  · rw [broadcastTo_1b_ab_apply _ _ p e (0 : Fin 1), hb]

end Cert.Attn.Pay

end
-- ==== Proof.KernelValue.lean ====
/-
  The kernel's result array is the layer of its arguments.

  After a grid point, the output buffer holds the body's output arithmetic of the point's tile (the carry invariant);
  read at `(0, p, e)` that is the specification's output at the point's batch, node `256 · tile + p`, feature `e` — the
  kept keys and features being those of the batch, the weights arriving transposed and the biases as rows. The point
  writes the buffer back to rows `256 · tile …` of its batch in the result array, which are exactly the entries of the
  layer it computed; and the 64 points' blocks cover the array, the block holding entry `(b, n, e)` being that of
  point `16 · b + n / 256`. So after the run the result array is the layer, entry by entry.
-/
import proofs.«147092_j17463337026078_2_alg».proof.Proof.Gen.KernelIdeal.Value
import proofs.«147092_j17463337026078_2_alg».proof.Proof.Spec
import proofs.«147092_j17463337026078_2_alg».proof.Proof.Pieces
import proofs.«147092_j17463337026078_2_alg».proof.Proof.Blocks
import proofs.«147092_j17463337026078_2_alg».proof.Proof.Carry
import proofs.«147092_j17463337026078_2_alg».proof.Proof.HostPrefix
import proofs.«147092_j17463337026078_2_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.Attn.KernelValue

open Cert.KernelIdeal Cert.KernelIdeal.Gen Cert.Attn Cert.Attn.Pieces Cert.Attn.Blocks Cert.Attn.Carry Cert.Attn.Host

variable (m : (ℓ : Loc nD τ sig) → Buf (Elt Ideal) ℓ) (ρ : Dev nD → PrngReg)

/-- The seven argument arrays as launched: the features, and the query, key and output weights and biases. -/
abbrev argX (c : Dev nD) : Feat := m ((c : Thread nD τ).loc main_arg0)
abbrev argWq (c : Dev nD) : Wt := m ((c : Thread nD τ).loc main_arg1)
abbrev argBq (c : Dev nD) : Bias := m ((c : Thread nD τ).loc main_arg2)
abbrev argWk (c : Dev nD) : Wt := m ((c : Thread nD τ).loc main_arg3)
abbrev argBk (c : Dev nD) : Bias := m ((c : Thread nD τ).loc main_arg4)
abbrev argWg (c : Dev nD) : Wt := m ((c : Thread nD τ).loc main_arg5)
abbrev argBg (c : Dev nD) : Bias := m ((c : Thread nD τ).loc main_arg6)

/-- The layer of the launched arguments, as contents of the result array. -/
abbrev result (c : Dev nD) : Buf (Elt Ideal) ((c : Thread nD τ).loc main_v6) := layer (argX m c) (argWq m c) (argBq m c) (argWk m c) (argBk m c) (argWg m c) (argBg m c)

/-- A batch's slab reads the launched features. -/
theorem slab_apply (c : Dev nD) (b : Fin 4) (u : Fin 1) (n : Fin 4096) (d : Fin 128) :
    slab m c b (ix3 u n d) = argX m c (ix3 b n d) :=
  congrFun (V_main_arg0 m c) (ix3 b n d)

/-- The kept keys of a batch are the specification's key projection. -/
theorem keys_at (c : Dev nD) (b : Fin 4) (n : Fin 4096) (e : Fin 128) :
    keysOf m c b (ix2 n e) = lin (argX m c) (argWk m c) (argBk m c) b n e :=
  Pay.keys_apply (argX m c) (argWk m c) (argBk m c) b (slab m c b) (V m c main_v1) (V m c main_v4)
    (fun n d => slab_apply m c b 0 n d) (fun d e => wkT_apply m c d e) (fun e => bkRow_apply m c 0 e) n e

/-- The kept features of a batch are the batch's features. -/
theorem vals_at (c : Dev nD) (b : Fin 4) (n : Fin 4096) (d : Fin 128) :
    valsOf m c b (ix2 n d) = argX m c (ix3 b n d) :=
  Pay.vals_apply (argX m c) b (slab m c b) (fun n d => slab_apply m c b 0 n d) n d

/-- The output block of a point, read at `(0, p, e)`: the layer's output at the point's batch and the tile's node `p`. -/
theorem block_at (c : Dev nD) (t : Fin cfg0.N) (u : Fin 1) (p : Fin 256) (e : Fin 128) :
    blockOut m c t (ix3 u p e) = outAt (argX m c) (argWq m c) (argBq m c) (argWk m c) (argBk m c) (argWg m c) (argBg m c) (batchOf t) (nodeOf t p) e := by
  obtain rfl : u = 0 := Subsingleton.elim _ _
  exact Pay.out_apply (argX m c) (argWq m c) (argBq m c) (argWk m c) (argBk m c) (argWg m c) (argBg m c) (batchOf t) (nodeOf t) (V m c main_v2) (V m c main_v5) _
    (fun d e => wgT_apply m c d e) (fun e => bgRow_apply m c 0 e)
    (fun p d => Pay.mix_apply (argX m c) (argWq m c) (argBq m c) (argWk m c) (argBk m c) (batchOf t) (nodeOf t)
      (tile (grid0.coords t) (slab m c (batchOf t))) (V m c main_v0) (V m c main_v3) (keysOf m c (batchOf t)) (valsOf m c (batchOf t))
      (fun p d => (tile_apply t (slab m c (batchOf t)) 0 p d).trans (slab_apply m c (batchOf t) 0 (nodeOf t p) d))
      (fun d e => wqT_apply m c d e) (fun e => bqRow_apply m c 0 e)
      (fun n e => keys_at m c (batchOf t) n e) (fun n d => vals_at m c (batchOf t) n d) p d)
    p e

/-- What a point writes back is its block of the layer. -/
theorem flushed_eq (c : Dev nD) (t : Fin cfg0.N) :
    (dats m 0 c).flushed 7 t = ((cfg0.win 7).blk t).view.read (Elt Ideal) (result m c) := by
  obtain ⟨-, -, -, -, -, -, -, -, -, -, -, -, -, -, -, e0, e1, e2, -⟩ := idx_facts t
  rw [Cert.KernelIdeal.Value.flushed7, after_point m c t.val t.isLt]
  funext j
  obtain ⟨u, p, e, rfl⟩ : ∃ (u : Fin 1) (p : Fin 256) (e : Fin 128), j = ix3 u p e := ⟨j 0, j 1, j 2, eq_ix3 j⟩
  show blockOut m c t (ix3 u p e) = result m c (((cfg0.win 7).blk t).view.emb (ix3 u p e))
  rw [block_at]
  have hemb : ((cfg0.win 7).blk t).view.emb (ix3 u p e) = ix3 (batchOf t) (nodeOf t p) e := by
    funext a; apply Fin.ext
    match a with
    | ⟨0, _⟩ => show win0_7.index t (0 : Fin 3) * 1 + 1 * u.val = t.val / 16; have := u.isLt; omega
    | ⟨1, _⟩ => show win0_7.index t (1 : Fin 3) * 256 + 1 * p.val = 256 * (t.val % 16) + p.val; omega
    | ⟨2, _⟩ => show win0_7.index t (2 : Fin 3) * 128 + 1 * e.val = e.val; omega
  rw [hemb]
  rfl

/-- An entry of the result array is in a point's block iff each coordinate is in the block's range on its axis. -/
theorem mem_blk (t : Fin cfg0.N) (i : S4x4096x128.Idx) :
    i ∈ ((cfg0.win 7).blk t).view.set ↔ ∀ a : Fin 3, win0_7.index t a * S1x256x128.size a ≤ (i a).val ∧ (i a).val < win0_7.index t a * S1x256x128.size a + S1x256x128.size a := by
  show i ∈ ((View.whole main_v6).slice (win0_7.rect t)).set ↔ _
  rw [View.set_slice_whole, Rect.mem_set_unit]
  exact Iff.rfl

/-- Every entry `(b, n, e)` of the result array is in the block of point `16 · b + n / 256`. -/
theorem cover (i : S4x4096x128.Idx) : ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 128 := (i 2).isLt
  have hN : cfg0.N = 64 := N_0
  let t : Fin cfg0.N := ⟨16 * (i 0).val + (i 1).val / 256, by omega⟩
  obtain ⟨-, -, -, -, -, -, -, -, -, -, -, -, -, -, -, e0, e1, e2, -⟩ := idx_facts t
  have ht : t.val = 16 * (i 0).val + (i 1).val / 256 := rfl
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 128 ≤ (i 2).val ∧ (i 2).val < win0_7.index t (2 : Fin 3) * 128 + 128; omega

/-- After the run the result array is the layer of the launched arguments. -/
theorem final (c : Dev nD) : (dats m 0 c).arrAt 7 cfg0.N = result m c :=
  (dats m 0 c).arrAt_eq_of_cover 7 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.Attn.KernelValue

end
-- ==== Proof.LibMaxReduce3.lean ====
/-
  The host's maximum reduction over the LAST axis of a rank-3 array `[a, b, n]`, read at an index, at the ideal values.

  On the extended reals the host's one-operand reduce with a maximum body, from an initial value, is at `(p, q)` the
  running maximum of the `n` entries `x (p, q, k)` from that initial value: a fold of `max` over the reduced axis's
  coordinate, whose order does not matter. (The same reading of a matrix's two axes is in `LibMaxReduce`, whose
  `foldMax` this uses.)
-/
import Idealize.ShloMosaic.Lib.ValueIdx
import Idealize.ShloMosaic.PureOps.Ideal.Laws
import proofs.«147092_j17463337026078_2_alg».proof.Proof.LibMaxReduce

noncomputable section

namespace Cert.LibMaxReduce3

open Idealize.ShloMosaic Idealize.ShloMosaic.ValueIdx Cert.LibMaxReduce

/-- The host's one-operand reduce with a maximum body over the LAST axis of an `[a, b, n]` array, read at `(p, q)`:
    the running maximum of the entries `x (p, q, k)` from the initial value's element. -/
theorem hostReduce_maximumf_lastAxis3_apply {a b n : ℕ} {u : Shape} (x : (⟨3, ![a, b, n]⟩ : Shape).Idx → EReal)
    (init : u.Idx → EReal) (h' : (⟨3, ![a, b, n]⟩ : Shape).ReducesTo [2] ⟨2, ![a, b]⟩)
    (h : (⟨3, ![a, b, n]⟩ : Shape).Reduces [2] ⟨2, ![a, b]⟩) (hu : 0 < u.numel) (p : Fin a) (q : Fin b) :
    Host.reduce (FloatOps.maximumf (F := Ideal) (φ := .f32)) x init h' hu (ix2 p q)
      = foldMax (init (Shape.Idx.first hu)) (fun k : Fin n => x (ix3 p q k)) := by
  refine (Host.reduce_eq_fold_single (FloatOps.maximumf (F := Ideal) (φ := .f32)) x init h' h hu (ix2 p q)).trans ?_
  unfold foldMax
  refine congrArg (fun f : Fin n → EReal => Finset.fold max (init (Shape.Idx.first hu)) f Finset.univ)
    (funext fun k => congrArg x ?_)
  funext ax; apply Fin.ext
  match ax with
  | ⟨0, _⟩ => rfl
  | ⟨1, _⟩ => rfl
  | ⟨2, _⟩ => rfl

end Cert.LibMaxReduce3

end
-- ==== Proof.RefSpec.lean ====
/-
  The reference program is the specification.

  The reference computes the graph-attention layer one array operation at a time: two linear projections (a
  contraction of the features with a weight matrix, plus a broadcast bias), the scores as a batched contraction of the
  queries with the keys, a softmax over each row of scores (the row's maximum from the word of -∞, joined once more
  with that word, subtracted, exponentiated, and divided by the row's sum of exponentials), the attention-weighted
  contraction with the features, the output projection, and a clamp below at zero. Read at coordinates
  `(bt, n, ·)`, each of these arrays is the quantity of the same name in the specification: every contraction is the
  finite sum over its contracted coordinate, every broadcast reads its operand at the coordinates it keeps, and the
  extra join with -∞ changes nothing because a running maximum is already above its start value.
-/
import proofs.«147092_j17463337026078_2_alg».proof.Proof.Gen.ReferenceIdeal.Read
import proofs.«147092_j17463337026078_2_alg».proof.Proof.Spec
import proofs.«147092_j17463337026078_2_alg».proof.Proof.LibMaxReduce
import proofs.«147092_j17463337026078_2_alg».proof.Proof.LibMaxReduce3

noncomputable section

namespace Cert.Attn.Ref

open Idealize.ShloMosaic Idealize.ShloMosaic.ValueIdx Cert.LibMaxReduce Cert.LibMaxReduce3
open Cert.ReferenceIdeal Cert.ReferenceIdeal.Gen Cert.ReferenceIdeal.Read

section
variable (x0 : (⟨S4x4096x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The query projection, read at `(bt, n, e)`, is the specification's linear layer: the contraction is the sum over
    the feature coordinate `d` of `x(bt, n, d) · W(e, d)`, and the twice-broadcast bias is `b(e)`. -/
theorem v3_at (bt : Fin 4) (n : Fin 4096) (e : Fin 128) :
    val_main_v3 (F := Ideal) x0 x1 x2 (ix3 bt n e) = lin x0 x1 x2 bt n e := by
  rw [val_main_v3_apply, val_main_v0_apply, val_main_v2_apply, val_main_v1_apply, Ideal.addf_def]
  unfold lin
  have hb : idx_main_v1 (idx_main_v2 (ix3 bt n e)) = ix1 e := by
    funext a; match a with | ⟨0, _⟩ => rfl
  rw [hb]
  refine congrArg (· + x2 (ix1 e)) (Finset.sum_congr rfl fun k _ => ?_)
  have hl : lidx_main_v0 (ix3 bt n e) k = ix3 bt n k := by
    funext a; match a with | ⟨0, _⟩ => rfl | ⟨1, _⟩ => rfl | ⟨2, _⟩ => rfl
  have hr : ridx_main_v0 (ix3 bt n e) k = ix2 e k := by
    funext a; match a with | ⟨0, _⟩ => rfl | ⟨1, _⟩ => rfl
  rw [hl, hr]

/-- The key projection, read at `(bt, n, e)`, is the specification's linear layer with the key's weight and bias. -/
theorem v7_at (bt : Fin 4) (n : Fin 4096) (e : Fin 128) :
    val_main_v7 (F := Ideal) x0 x3 x4 (ix3 bt n e) = lin x0 x3 x4 bt n e := by
  rw [val_main_v7_apply, val_main_v4_apply, val_main_v6_apply, val_main_v5_apply, Ideal.addf_def]
  unfold lin
  have hb : idx_main_v5 (idx_main_v6 (ix3 bt n e)) = ix1 e := by
    funext a; match a with | ⟨0, _⟩ => rfl
  rw [hb]
  refine congrArg (· + x4 (ix1 e)) (Finset.sum_congr rfl fun k _ => ?_)
  have hl : lidx_main_v4 (ix3 bt n e) k = ix3 bt n k := by
    funext a; match a with | ⟨0, _⟩ => rfl | ⟨1, _⟩ => rfl | ⟨2, _⟩ => rfl
  have hr : ridx_main_v4 (ix3 bt n e) k = ix2 e k := by
    funext a; match a with | ⟨0, _⟩ => rfl | ⟨1, _⟩ => rfl
  rw [hl, hr]

/-- The batched contraction of queries with keys, read at `(bt, n, m)`, is the score of node `n` against node `m`. -/
theorem v8_at (bt : Fin 4) (n m : Fin 4096) :
    val_main_v8 (F := Ideal) x0 x1 x2 x3 x4 (ix3 bt n m) = score x0 x1 x2 x3 x4 bt n m := by
  rw [val_main_v8_apply]
  unfold score
  refine Finset.sum_congr rfl fun k _ => ?_
  have hl : lidx_main_v8 (ix3 bt n m) k = ix3 bt n k := by
    funext a; match a with | ⟨0, _⟩ => rfl | ⟨1, _⟩ => rfl | ⟨2, _⟩ => rfl
  have hr : ridx_main_v8 (ix3 bt n m) k = ix3 bt m k := by
    funext a; match a with | ⟨0, _⟩ => rfl | ⟨1, _⟩ => rfl | ⟨2, _⟩ => rfl
  rw [hl, hr, v3_at, v7_at]

/-- The row maximum: the reduce from the word of -∞ is the running maximum of the row's scores, and joining that word
    in once more changes nothing. -/
theorem v11_at (bt : Fin 4) (n : Fin 4096) :
    val_main_v11 (F := Ideal) x0 x1 x2 x3 x4 (ix2 bt n) = rowMax x0 x1 x2 x3 x4 bt n := by
  rw [val_main_v11_apply, val_main_v10_apply, val_main_cst_0_apply, Ideal.maximumf_def, Ideal.ofBits_def]
  have h9 : val_main_v9 (F := Ideal) x0 x1 x2 x3 x4 (ix2 bt n)
      = foldMax negInf (fun m : Fin 4096 => score x0 x1 x2 x3 x4 bt n m) := by
    unfold val_main_v9
    refine (hostReduce_maximumf_lastAxis3_apply (val_main_v8 (F := Ideal) x0 x1 x2 x3 x4) (val_main_cst (F := Ideal))
      reducesTo_S4x4096x4096_S4x4096_d2 (by decide) h_S_ bt n).trans ?_
    rw [val_main_cst_apply, Ideal.ofBits_def]
    exact congrArg (foldMax negInf) (funext fun m => v8_at x0 x1 x2 x3 x4 bt n m)
  rw [h9]
  exact max_foldMax negInf _

/-- A score less its row's maximum, exponentiated: the maximum is broadcast back along the row. -/
theorem v15_at (bt : Fin 4) (n m : Fin 4096) :
    val_main_v15 (F := Ideal) x0 x1 x2 x3 x4 (ix3 bt n m) = expo x0 x1 x2 x3 x4 bt n m := by
  rw [val_main_v15_apply, val_main_v14_apply, val_main_v13_apply, val_main_v12_apply, Ideal.hostUnary_exp_def,
    Ideal.subf_def]
  have hi : idx_main_v12 (idx_main_v13 (ix3 bt n m)) = ix2 bt n := by
    funext a; match a with | ⟨0, _⟩ => rfl | ⟨1, _⟩ => rfl
  rw [hi, v8_at, v11_at]
  rfl

/-- The sum of a row's exponentials: the reduce starts from the word of zero, which is `0`. -/
theorem v16_at (bt : Fin 4) (n : Fin 4096) :
    val_main_v16 (F := Ideal) x0 x1 x2 x3 x4 (ix2 bt n) = denom x0 x1 x2 x3 x4 bt n := by
  rw [val_main_v16_apply, val_main_cst_1_apply, Ideal.ofBits_def, Ideal.ofBits_zero_f32, zero_add]
  unfold denom
  refine Finset.sum_congr rfl fun k _ => ?_
  have hi : idx_main_v16 (ix2 bt n) k = ix3 bt n k := by
    funext a; match a with | ⟨0, _⟩ => rfl | ⟨1, _⟩ => rfl | ⟨2, _⟩ => rfl
  rw [hi, v15_at]

/-- The attention weight: the exponential divided by its row's sum, broadcast back along the row. -/
theorem v19_at (bt : Fin 4) (n m : Fin 4096) :
    val_main_v19 (F := Ideal) x0 x1 x2 x3 x4 (ix3 bt n m) = attn x0 x1 x2 x3 x4 bt n m := by
  rw [val_main_v19_apply, val_main_v18_apply, val_main_v17_apply, Ideal.hostDivf_def]
  have hi : idx_main_v17 (idx_main_v18 (ix3 bt n m)) = ix2 bt n := by
    funext a; match a with | ⟨0, _⟩ => rfl | ⟨1, _⟩ => rfl
  rw [hi, v15_at, v16_at]
  rfl

/-- The attention-weighted contraction with the features, read at `(bt, n, d)`, is the mixed feature. -/
theorem v20_at (bt : Fin 4) (n : Fin 4096) (d : Fin 128) :
    val_main_v20 (F := Ideal) x0 x1 x2 x3 x4 (ix3 bt n d) = mix x0 x1 x2 x3 x4 bt n d := by
  rw [val_main_v20_apply]
  unfold mix
  refine Finset.sum_congr rfl fun k _ => ?_
  have hl : lidx_main_v20 (ix3 bt n d) k = ix3 bt n k := by
    funext a; match a with | ⟨0, _⟩ => rfl | ⟨1, _⟩ => rfl | ⟨2, _⟩ => rfl
  have hr : ridx_main_v20 (ix3 bt n d) k = ix3 bt k d := by
    funext a; match a with | ⟨0, _⟩ => rfl | ⟨1, _⟩ => rfl | ⟨2, _⟩ => rfl
  rw [hl, hr, v19_at]

/-- The output projection of the mixed features plus its bias, clamped below at the word of zero. -/
theorem v25_at (bt : Fin 4) (n : Fin 4096) (e : Fin 128) :
    val_main_v25 (F := Ideal) x0 x1 x2 x3 x4 x5 x6 (ix3 bt n e) = outAt x0 x1 x2 x3 x4 x5 x6 bt n e := by
  rw [val_main_v25_apply, val_main_v24_apply, val_main_v21_apply, val_main_v23_apply, val_main_v22_apply,
    val_main_call0_v0_apply, val_main_call0_cst_apply, Ideal.maximumf_def, Ideal.addf_def, Ideal.ofBits_def]
  unfold outAt zeroWord
  have hb : idx_main_v22 (idx_main_v23 (ix3 bt n e)) = ix1 e := by
    funext a; match a with | ⟨0, _⟩ => rfl
  rw [hb]
  refine congrArg (fun s : EReal => max (s + x6 (ix1 e)) (Ideal.ofBits .f32 0x00000000#32))
    (Finset.sum_congr rfl fun k _ => ?_)
  have hl : lidx_main_v21 (ix3 bt n e) k = ix3 bt n k := by
    funext a; match a with | ⟨0, _⟩ => rfl | ⟨1, _⟩ => rfl | ⟨2, _⟩ => rfl
  have hr : ridx_main_v21 (ix3 bt n e) k = ix2 e k := by
    funext a; match a with | ⟨0, _⟩ => rfl | ⟨1, _⟩ => rfl
  rw [hl, hr, v20_at]

end

/-- The reference program's result is the specification's layer. -/
theorem ref_is_layer (x0 : (⟨Cert.ReferenceIdeal.S4x4096x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) :
    Cert.ReferenceIdeal.Read.val_main_v25 (F := Ideal) x0 x1 x2 x3 x4 x5 x6 = Cert.Attn.layer x0 x1 x2 x3 x4 x5 x6 := by
  funext i
  obtain ⟨bt, n, e, rfl⟩ : ∃ bt n e, i = ix3 bt n e := ⟨i 0, i 1, i 2, eq_ix3 i⟩
  exact v25_at x0 x1 x2 x3 x4 x5 x6 bt n e

end Cert.Attn.Ref

end
-- ==== Proof.lean ====
/-
  The kernel and its reference compute one graph-attention layer.

  For features `x : [4, 4096, 128]` and three linear layers (query, key, output), both programs compute, per batch,
  the queries and keys of all nodes, every node's scores against every node, the softmax of each row of scores, the
  softmax-weighted average of the nodes' features, and the output layer of that average clamped below at zero
  (`Cert.Attn.layer`, Proof/Spec.lean). The reference does so one whole-array operation at a time. The kernel walks a
  grid of 4 batches by 16 tiles of 256 nodes: at a batch's first tile it computes the batch's keys once and keeps
  them, with the batch's features, for the batch's other tiles; at every tile it computes that tile's queries, their
  scores against all kept keys, the row softmax, the weighted average of the kept features and the output layer, and
  writes the tile's 256 rows of the result.

  On the extended reals the two agree entry by entry, and no step needs an entry to be finite: every narrowing of a
  float format is the identity there, each matrix product is the finite sum over its contracted coordinate (the
  host's transposes of the weights only rename the coordinates), the kernel's and the reference's row maximum are the
  same running maximum from the word of -∞ (the reference joins that word in once more, which changes nothing), and
  both divide each exponential by its row's sum.

  • The reference's result is the layer of its arguments: Proof/RefSpec.lean, over the generated reading of its run.
  • The kernel's result array is the layer of its arguments: Proof/KernelValue.lean — what one run of the body leaves
    (Proof/Pieces.lean), where each window's block sits (Proof/Blocks.lean), what the host prepares before the launch
    (Proof/HostPrefix.lean), the kept keys and features after every grid point by induction on the point
    (Proof/Carry.lean), and the body's arithmetic read at an index (Proof/Payload.lean).
  • Each program runs to completion without a fault and leaves its arguments unchanged: the generated frames, and
    for the reference its generated run with the result dropped. The idealized kernel is the kernel's own text read
    on the extended reals (nothing was rewritten), so that conjunct is trivial.
-/
import proofs.«147092_j17463337026078_2_alg».proof.Defs
import proofs.«147092_j17463337026078_2_alg».proof.Proof.Gen.Kernel
import proofs.«147092_j17463337026078_2_alg».proof.Proof.Gen.Kernel.Skeleton
import proofs.«147092_j17463337026078_2_alg».proof.Proof.Gen.Kernel.Launch
import proofs.«147092_j17463337026078_2_alg».proof.Proof.Gen.Kernel.Points
import proofs.«147092_j17463337026078_2_alg».proof.Proof.Gen.Kernel.Frame
import proofs.«147092_j17463337026078_2_alg».proof.Proof.Gen.KernelIdeal
import proofs.«147092_j17463337026078_2_alg».proof.Proof.Gen.KernelIdeal.Skeleton
import proofs.«147092_j17463337026078_2_alg».proof.Proof.Gen.KernelIdeal.Launch
import proofs.«147092_j17463337026078_2_alg».proof.Proof.Gen.KernelIdeal.Points
import proofs.«147092_j17463337026078_2_alg».proof.Proof.Gen.KernelIdeal.Frame
import proofs.«147092_j17463337026078_2_alg».proof.Proof.Gen.ReferenceIdeal
import proofs.«147092_j17463337026078_2_alg».proof.Proof.Gen.Pre_finite_inputs
import proofs.«147092_j17463337026078_2_alg».proof.Proof.Gen.KernelIdeal.Value
import proofs.«147092_j17463337026078_2_alg».proof.Proof.Gen.ReferenceIdeal.Run
import proofs.«147092_j17463337026078_2_alg».proof.Proof.Gen.ReferenceIdeal.Read
import proofs.«147092_j17463337026078_2_alg».proof.Proof.KernelValue
import proofs.«147092_j17463337026078_2_alg».proof.Proof.RefSpec
import Idealize.ShloMosaic.Adequacy
import Idealize.ShloMosaic.Init

noncomputable section

namespace Cert.Proof

open Idealize.ShloMosaic Idealize.SL.Sem

/-- The kernel as printed runs to completion and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote nothing. -/
theorem preserves : Cert.preserves_Kernel_KernelIdeal := trivial

/-- From memories that agree on the seven arguments, the kernel's result array ends at the layer of its arguments
    and the reference's result at the layer of its own, which are the same arrays. -/
theorem algebraic : Cert.algebraic_KernelIdeal_ReferenceIdeal := by
  intro m ρ m' ρ' _ hagree
  refine ⟨fun c => Cert.Attn.KernelValue.result m c, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Attn.Ref.ref_is_layer, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
